-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_v43) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S8192x1024 : Shape := ⟨2, ![8192, 1024]⟩
abbrev S4096x512 : Shape := ⟨2, ![4096, 512]⟩
abbrev S4096x1024 : Shape := ⟨2, ![4096, 1024]⟩
abbrev S4096 : Shape := ⟨1, ![4096]⟩
abbrev S8192x4096 : Shape := ⟨2, ![8192, 4096]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S8192x1024 : S_.BroadcastsInDim S8192x1024 (![] : Fin 0 → Fin S8192x1024.rank)
  reducesTo_S8192x1024_S_d0_1 : S8192x1024.ReducesTo [0, 1] S_
  bcast_S_S4096x512 : S_.BroadcastsInDim S4096x512 (![] : Fin 0 → Fin S4096x512.rank)
  reducesTo_S4096x512_S_d0_1 : S4096x512.ReducesTo [0, 1] S_
  bcast_S_S4096x1024 : S_.BroadcastsInDim S4096x1024 (![] : Fin 0 → Fin S4096x1024.rank)
  reducesTo_S4096x1024_S_d0_1 : S4096x1024.ReducesTo [0, 1] S_
  bcast_S_S4096 : S_.BroadcastsInDim S4096 (![] : Fin 0 → Fin S4096.rank)
  reducesTo_S4096_S_d0 : S4096.ReducesTo [0] S_
  bcast_S_S8192x4096 : S_.BroadcastsInDim S8192x4096 (![] : Fin 0 → Fin S8192x4096.rank)
  reducesTo_S8192x4096_S_d0_1 : S8192x4096.ReducesTo [0, 1] S_

variable [Facts]

def fn_part2 {F : FTy → Type} [FloatOps F] (main_arg7 : FVec F S4096 .f32) (main_arg8 : FVec F S4096 .f32) (main_arg9 : FVec F S8192x4096 .f32) (main_v33 : IVec S_ 1) : IVec S_ 1 :=
  let main_v34 : FVec F S4096 .f32 := Host.absf main_arg7
  let main_cst_12 : FVec F S_ .f32 := constant S_ .f32 0x7F800000#32
  let main_v35 : FVec F S4096 .f32 := broadcastInDim S4096 ![] bcast_S_S4096 main_cst_12
  let main_v36 : IVec S4096 1 := cmpf .olt main_v34 main_v35
  let main_c_13 : IVec S_ 1 := constantI S_ 1 1#1
  let main_v37 : IVec S_ 1 := (fun x v => Host.reduce IntOp.andi x v reducesTo_S4096_S_d0 h_S_) main_v36 main_c_13
  let main_v38 : IVec S_ 1 := andi main_v33 main_v37
  let main_v39 : FVec F S4096 .f32 := Host.absf main_arg8
  let main_cst_14 : FVec F S_ .f32 := constant S_ .f32 0x7F800000#32
  let main_v40 : FVec F S4096 .f32 := broadcastInDim S4096 ![] bcast_S_S4096 main_cst_14
  let main_v41 : IVec S4096 1 := cmpf .olt main_v39 main_v40
  let main_c_15 : IVec S_ 1 := constantI S_ 1 1#1
  let main_v42 : IVec S_ 1 := (fun x v => Host.reduce IntOp.andi x v reducesTo_S4096_S_d0 h_S_) main_v41 main_c_15
  let main_v43 : IVec S_ 1 := andi main_v38 main_v42
  let main_v44 : FVec F S8192x4096 .f32 := Host.absf main_arg9
  let main_cst_16 : FVec F S_ .f32 := constant S_ .f32 0x7F800000#32
  let main_v45 : FVec F S8192x4096 .f32 := broadcastInDim S8192x4096 ![] bcast_S_S8192x4096 main_cst_16
  let main_v46 : IVec S8192x4096 1 := cmpf .olt main_v44 main_v45
  let main_c_17 : IVec S_ 1 := constantI S_ 1 1#1
  let main_v47 : IVec S_ 1 := (fun x v => Host.reduce IntOp.andi x v reducesTo_S8192x4096_S_d0_1 h_S_) main_v46 main_c_17
  let main_v48 : IVec S_ 1 := andi main_v43 main_v47
  main_v48

def fn_part1 {F : FTy → Type} [FloatOps F] (main_arg4 : FVec F S4096x1024 .f32) (main_arg5 : FVec F S4096 .f32) (main_arg6 : FVec F S4096 .f32) (main_arg7 : FVec F S4096 .f32) (main_arg8 : FVec F S4096 .f32) (main_arg9 : FVec F S8192x4096 .f32) (main_v13 : IVec S_ 1) (main_v16 : IVec S4096x512 1) : IVec S_ 1 :=
  let main_c_5 : IVec S_ 1 := constantI S_ 1 1#1
  let main_v17 : IVec S_ 1 := (fun x v => Host.reduce IntOp.andi x v reducesTo_S4096x512_S_d0_1 h_S_) main_v16 main_c_5
  let main_v18 : IVec S_ 1 := andi main_v13 main_v17
  let main_v19 : FVec F S4096x1024 .f32 := Host.absf main_arg4
  let main_cst_6 : FVec F S_ .f32 := constant S_ .f32 0x7F800000#32
  let main_v20 : FVec F S4096x1024 .f32 := broadcastInDim S4096x1024 ![] bcast_S_S4096x1024 main_cst_6
  let main_v21 : IVec S4096x1024 1 := cmpf .olt main_v19 main_v20
  let main_c_7 : IVec S_ 1 := constantI S_ 1 1#1
  let main_v22 : IVec S_ 1 := (fun x v => Host.reduce IntOp.andi x v reducesTo_S4096x1024_S_d0_1 h_S_) main_v21 main_c_7
  let main_v23 : IVec S_ 1 := andi main_v18 main_v22
  let main_v24 : FVec F S4096 .f32 := Host.absf main_arg5
  let main_cst_8 : FVec F S_ .f32 := constant S_ .f32 0x7F800000#32
  let main_v25 : FVec F S4096 .f32 := broadcastInDim S4096 ![] bcast_S_S4096 main_cst_8
  let main_v26 : IVec S4096 1 := cmpf .olt main_v24 main_v25
  let main_c_9 : IVec S_ 1 := constantI S_ 1 1#1
  let main_v27 : IVec S_ 1 := (fun x v => Host.reduce IntOp.andi x v reducesTo_S4096_S_d0 h_S_) main_v26 main_c_9
  let main_v28 : IVec S_ 1 := andi main_v23 main_v27
  let main_v29 : FVec F S4096 .f32 := Host.absf main_arg6
  let main_cst_10 : FVec F S_ .f32 := constant S_ .f32 0x7F800000#32
  let main_v30 : FVec F S4096 .f32 := broadcastInDim S4096 ![] bcast_S_S4096 main_cst_10
  let main_v31 : IVec S4096 1 := cmpf .olt main_v29 main_v30
  let main_c_11 : IVec S_ 1 := constantI S_ 1 1#1
  let main_v32 : IVec S_ 1 := (fun x v => Host.reduce IntOp.andi x v reducesTo_S4096_S_d0 h_S_) main_v31 main_c_11
  let main_v33 : IVec S_ 1 := andi main_v28 main_v32
  fn_part2 (F := F) main_arg7 main_arg8 main_arg9 main_v33

def fn {F : FTy → Type} [FloatOps F] (main_arg0 : FVec F S8192x512 .f32) (main_arg1 : FVec F S8192x1024 .f32) (main_arg2 : FVec F S8192x1024 .f32) (main_arg3 : FVec F S4096x512 .f32) (main_arg4 : FVec F S4096x1024 .f32) (main_arg5 : FVec F S4096 .f32) (main_arg6 : FVec F S4096 .f32) (main_arg7 : FVec F S4096 .f32) (main_arg8 : FVec F S4096 .f32) (main_arg9 : FVec F S8192x4096 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : FVec F S4096x512 .f32 := Host.absf main_arg3
  let main_cst_4 : FVec F S_ .f32 := constant S_ .f32 0x7F800000#32
  let main_v15 : FVec F S4096x512 .f32 := broadcastInDim S4096x512 ![] bcast_S_S4096x512 main_cst_4
  let main_v16 : IVec S4096x512 1 := cmpf .olt main_v14 main_v15
  fn_part1 (F := F) main_arg4 main_arg5 main_arg6 main_arg7 main_arg8 main_arg9 main_v13 main_v16
-- ==== Kernel.lean ====
abbrev S8192x512 : Shape := ⟨2, ![8192, 512]⟩
abbrev S8192x1024 : Shape := ⟨2, ![8192, 1024]⟩
abbrev S4096x512 : Shape := ⟨2, ![4096, 512]⟩
abbrev S4096x1024 : Shape := ⟨2, ![4096, 1024]⟩
abbrev S4096 : Shape := ⟨1, ![4096]⟩
abbrev S8192x4096 : Shape := ⟨2, ![8192, 4096]⟩
abbrev S1x4096 : Shape := ⟨2, ![1, 4096]⟩
abbrev S256x512 : Shape := ⟨2, ![256, 512]⟩
abbrev S256x1024 : Shape := ⟨2, ![256, 1024]⟩
abbrev S256x4096 : Shape := ⟨2, ![256, 4096]⟩

abbrev nBuf : Space → Nat
  | .hbm => 18
  | .vmem => 16
  | .smem => 0
  | _ => 0

abbrev bufTy : (tb : Table) → Fin (tcTables nBuf tb) → BufTy
  | .hbm, ⟨0, _⟩ => ⟨S8192x512, .f32⟩
  | .hbm, ⟨1, _⟩ => ⟨S8192x1024, .f32⟩
  | .hbm, ⟨2, _⟩ => ⟨S8192x1024, .f32⟩
  | .hbm, ⟨3, _⟩ => ⟨S4096x512, .f32⟩
  | .hbm, ⟨4, _⟩ => ⟨S4096x1024, .f32⟩
  | .hbm, ⟨5, _⟩ => ⟨S4096, .f32⟩
  | .hbm, ⟨6, _⟩ => ⟨S4096, .f32⟩
  | .hbm, ⟨7, _⟩ => ⟨S4096, .f32⟩
  | .hbm, ⟨8, _⟩ => ⟨S4096, .f32⟩
  | .hbm, ⟨9, _⟩ => ⟨S8192x4096, .f32⟩
  | .hbm, ⟨10, _⟩ => ⟨S4096x512, .bf16⟩
  | .hbm, ⟨11, _⟩ => ⟨S4096x1024, .bf16⟩
  | .hbm, ⟨12, _⟩ => ⟨S4096, .f32⟩
  | .hbm, ⟨13, _⟩ => ⟨S4096, .f32⟩
  | .hbm, ⟨14, _⟩ => ⟨S1x4096, .f32⟩
  | .hbm, ⟨15, _⟩ => ⟨S1x4096, .f32⟩
  | .hbm, ⟨16, _⟩ => ⟨S8192x1024, .f32⟩
  | .hbm, ⟨17, _⟩ => ⟨S8192x1024, .f32⟩
  | .local _ .vmem, ⟨0, _⟩ => ⟨S256x512, .f32⟩
  | .local _ .vmem, ⟨1, _⟩ => ⟨S256x512, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x4096, .f32⟩
  | .local _ .vmem, ⟨7, _⟩ => ⟨S256x4096, .f32⟩
  | .local _ .vmem, ⟨8, _⟩ => ⟨S4096x512, .bf16⟩
  | .local _ .vmem, ⟨9, _⟩ => ⟨S4096x1024, .bf16⟩
  | .local _ .vmem, ⟨10, _⟩ => ⟨S1x4096, .f32⟩
  | .local _ .vmem, ⟨11, _⟩ => ⟨S1x4096, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6_0 : Ref sig .tc := ⟨.hbm, 16, rfl⟩
abbrev main_v6_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4096x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4096x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  bitsLt_bf16_f32 : FTy.bits .bf16 < FTy.bits .f32
  shapeCasts_S4096_S1x4096 : S4096.ShapeCasts S1x4096
  inb_S256x512_S256x512_0_0 : ∀ a, (![0, 0] : Fin 2 → Nat) a + S256x512.size a ≤ S256x512.size a
  h_S256x512 : 0 < S256x512.numel
  inb_S256x1024_S256x1024_0_0 : ∀ a, (![0, 0] : Fin 2 → Nat) a + S256x1024.size a ≤ S256x1024.size a
  h_S256x1024 : 0 < S256x1024.numel
  inb_S4096x512_S4096x512_0_0 : ∀ a, (![0, 0] : Fin 2 → Nat) a + S4096x512.size a ≤ S4096x512.size a
  h_S4096x512 : 0 < S4096x512.numel
  shapeCasts_S4096x512_S4096x512 : S4096x512.ShapeCasts S4096x512
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  inb_S256x4096_S256x4096_0_0 : ∀ a, (![0, 0] : Fin 2 → Nat) a + S256x4096.size a ≤ S256x4096.size a
  h_S256x4096 : 0 < S256x4096.numel
  slices_S256x4096_o0_0_S256x1024 : S256x4096.Slices ![0, 0] S256x1024
  slices_S256x4096_o0_1024_S256x1024 : S256x4096.Slices ![0, 1024] S256x1024
  slices_S256x4096_o0_2048_S256x1024 : S256x4096.Slices ![0, 2048] S256x1024
  slices_S256x4096_o0_3072_S256x1024 : S256x4096.Slices ![0, 3072] S256x1024
  dot_S256x512_S4096x512_S256x4096_1_1_0_0_n_n_wf : DotDims.WF S256x512 S4096x512 S256x4096 [1] [1] [0] [0] [] []
  dot_S256x1024_S4096x1024_S256x4096_1_1_0_0_n_n_wf : DotDims.WF S256x1024 S4096x1024 S256x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x512.size a ≤ S8192x512.size a
  hwx0_0 : ∀ i : grid0.Coords, EltTy.bits .f32 = 32 ∨ (Rect.block (s := S8192x512) S256x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S8192x1024.size a
  hwx0_1 : ∀ i : grid0.Coords, EltTy.bits .f32 = 32 ∨ (Rect.block (s := S8192x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S8192x1024.size a
  hwx0_2 : ∀ i : grid0.Coords, EltTy.bits .f32 = 32 ∨ (Rect.block (s := S8192x1024) S256x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x4096.size a ≤ S8192x4096.size a
  hwx0_3 : ∀ i : grid0.Coords, EltTy.bits .f32 = 32 ∨ (Rect.block (s := S8192x4096) S256x4096.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4096x512.size a ≤ S4096x512.size a
  hwx0_4 : ∀ i : grid0.Coords, EltTy.bits .bf16 = 32 ∨ (Rect.block (s := S4096x512) S4096x512.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S4096x1024.size a ≤ S4096x1024.size a
  hwx0_5 : ∀ i : grid0.Coords, EltTy.bits .bf16 = 32 ∨ (Rect.block (s := S4096x1024) S4096x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x4096.size a ≤ S1x4096.size a
  hwx0_6 : ∀ i : grid0.Coords, EltTy.bits .f32 = 32 ∨ (Rect.block (s := S1x4096) S1x4096.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x4096.size a ≤ S1x4096.size a
  hwx0_7 : ∀ i : grid0.Coords, EltTy.bits .f32 = 32 ∨ (Rect.block (s := S1x4096) S1x4096.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S256x1024.size a ≤ S8192x1024.size a
  hwx0_8 : ∀ i : grid0.Coords, EltTy.bits .f32 = 32 ∨ (Rect.block (s := S8192x1024) S256x1024.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S256x1024.size a ≤ S8192x1024.size a
  hwx0_9 : ∀ i : grid0.Coords, EltTy.bits .f32 = 32 ∨ (Rect.block (s := S8192x1024) S256x1024.size (cc0_transform_9 i) (hinb0_9 i)).WholeWords (EltTy.packing .f32)

variable [Facts₀]

def dot_S256x512_S4096x512_S256x4096_1_1_0_0_n_n : DotDims S256x512 S4096x512 S256x4096 where
  lhsContracting := [1]
  rhsContracting := [1]
  lhsNonContracting := [0]
  rhsNonContracting := [0]
  lhsBatch := []
  rhsBatch := []
  wf := dot_S256x512_S4096x512_S256x4096_1_1_0_0_n_n_wf
def dot_S256x1024_S4096x1024_S256x4096_1_1_0_0_n_n : DotDims S256x1024 S4096x1024 S256x4096 where
  lhsContracting := [1]
  rhsContracting := [1]
  lhsNonContracting := [0]
  rhsNonContracting := [0]
  lhsBatch := []
  rhsBatch := []
  wf := dot_S256x1024_S4096x1024_S256x4096_1_1_0_0_n_n_wf

abbrev win0_0 : Pipeline.Window sig grid0 :=
  Pipeline.Window.ofSpec (Memref.whole main_arg0) S256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg9) S256x4096.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S4096x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S4096x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4) S1x4096.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v5) S1x4096.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v6_0) S256x1024.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v6_1) S256x1024.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S8192x512 : Shape := ⟨2, ![8192, 512]⟩
abbrev S8192x1024 : Shape := ⟨2, ![8192, 1024]⟩
abbrev S4096x512 : Shape := ⟨2, ![4096, 512]⟩
abbrev S4096x1024 : Shape := ⟨2, ![4096, 1024]⟩
abbrev S4096 : Shape := ⟨1, ![4096]⟩
abbrev S8192x4096 : Shape := ⟨2, ![8192, 4096]⟩
abbrev S512x4096 : Shape := ⟨2, ![512, 4096]⟩
abbrev S1x4096 : Shape := ⟨2, ![1, 4096]⟩
abbrev S1024x4096 : Shape := ⟨2, ![1024, 4096]⟩
abbrev S_ : Shape := ⟨0, ![]⟩

abbrev nBuf : Space → Nat
  | .hbm => 62
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x1024, .f32⟩
  | .hbm, ⟨2, _⟩ => ⟨S8192x1024, .f32⟩
  | .hbm, ⟨3, _⟩ => ⟨S4096x512, .f32⟩
  | .hbm, ⟨4, _⟩ => ⟨S4096x1024, .f32⟩
  | .hbm, ⟨5, _⟩ => ⟨S4096, .f32⟩
  | .hbm, ⟨6, _⟩ => ⟨S4096, .f32⟩
  | .hbm, ⟨7, _⟩ => ⟨S4096, .f32⟩
  | .hbm, ⟨8, _⟩ => ⟨S4096, .f32⟩
  | .hbm, ⟨9, _⟩ => ⟨S8192x4096, .f32⟩
  | .hbm, ⟨10, _⟩ => ⟨S512x4096, .f32⟩
  | .hbm, ⟨11, _⟩ => ⟨S8192x4096, .f32⟩
  | .hbm, ⟨12, _⟩ => ⟨S1x4096, .f32⟩
  | .hbm, ⟨13, _⟩ => ⟨S8192x4096, .f32⟩
  | .hbm, ⟨14, _⟩ => ⟨S8192x4096, .f32⟩
  | .hbm, ⟨15, _⟩ => ⟨S1024x4096, .f32⟩
  | .hbm, ⟨16, _⟩ => ⟨S8192x4096, .f32⟩
  | .hbm, ⟨17, _⟩ => ⟨S8192x4096, .f32⟩
  | .hbm, ⟨18, _⟩ => ⟨S1x4096, .f32⟩
  | .hbm, ⟨19, _⟩ => ⟨S8192x4096, .f32⟩
  | .hbm, ⟨20, _⟩ => ⟨S8192x4096, .f32⟩
  | .hbm, ⟨21, _⟩ => ⟨S1x4096, .f32⟩
  | .hbm, ⟨22, _⟩ => ⟨S8192x4096, .f32⟩
  | .hbm, ⟨23, _⟩ => ⟨S8192x4096, .f32⟩
  | .hbm, ⟨24, _⟩ => ⟨S1x4096, .f32⟩
  | .hbm, ⟨25, _⟩ => ⟨S8192x4096, .f32⟩
  | .hbm, ⟨26, _⟩ => ⟨S8192x4096, .f32⟩
  | .hbm, ⟨27, _⟩ => ⟨S8192x4096, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S8192x1024, .f32⟩
  | .hbm, ⟨36, _⟩ => ⟨S8192x1024, .f32⟩
  | .hbm, ⟨37, _⟩ => ⟨S_, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S_, .f32⟩
  | .hbm, ⟨43, _⟩ => ⟨S8192x1024, .f32⟩
  | .hbm, ⟨44, _⟩ => ⟨S8192x1024, .f32⟩
  | .hbm, ⟨45, _⟩ => ⟨S_, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S_, .f32⟩
  | .hbm, ⟨52, _⟩ => ⟨S8192x1024, .f32⟩
  | .hbm, ⟨53, _⟩ => ⟨S8192x1024, .f32⟩
  | .hbm, ⟨54, _⟩ => ⟨S_, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S8192x1024, .f32⟩
  | .hbm, ⟨60, _⟩ => ⟨S8192x1024, .f32⟩
  | .hbm, ⟨61, _⟩ => ⟨S8192x1024, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst : Ref sig .tc := ⟨.hbm, 34, rfl⟩
abbrev main_v24 : Ref sig .tc := ⟨.hbm, 35, rfl⟩
abbrev main_v25 : Ref sig .tc := ⟨.hbm, 36, rfl⟩
abbrev main_cst_0 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_1 : Ref sig .tc := ⟨.hbm, 42, rfl⟩
abbrev main_v30 : Ref sig .tc := ⟨.hbm, 43, rfl⟩
abbrev main_v31 : Ref sig .tc := ⟨.hbm, 44, rfl⟩
abbrev main_cst_2 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_3 : Ref sig .tc := ⟨.hbm, 51, rfl⟩
abbrev main_v37 : Ref sig .tc := ⟨.hbm, 52, rfl⟩
abbrev main_v38 : Ref sig .tc := ⟨.hbm, 53, rfl⟩
abbrev main_cst_4 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩

abbrev nD : Nat := 1
abbrev τ : Topo := Topo.v7x

variable {F : FTy → Type} [FloatOps F]

class Facts₀ : Prop where
  transposes_S4096x512_S512x4096_1_0 : S4096x512.Transposes [1, 0] S512x4096
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  transposes_S4096x1024_S1024x4096_1_0 : S4096x1024.Transposes [1, 0] S1024x4096
  slices_S8192x4096_S8192x1024_0_0 : S8192x4096.Slices ![0, 0] S8192x1024
  slices_S8192x4096_S8192x1024_0_1024 : S8192x4096.Slices ![0, 1024] S8192x1024
  slices_S8192x4096_S8192x1024_0_2048 : S8192x4096.Slices ![0, 2048] S8192x1024
  slices_S8192x4096_S8192x1024_0_3072 : S8192x4096.Slices ![0, 3072] S8192x1024
  bcast_S_S8192x1024 : S_.BroadcastsInDim S8192x1024 (![] : Fin 0 → Fin S8192x1024.rank)
  dot_S8192x512_S512x4096_S8192x4096_1_0_0_1_n_n_wf : DotDims.WF S8192x512 S512x4096 S8192x4096 [1] [0] [0] [1] [] []
  dot_S8192x1024_S1024x4096_S8192x4096_1_0_0_1_n_n_wf : DotDims.WF S8192x1024 S1024x4096 S8192x4096 [1] [0] [0] [1] [] []

variable [Facts₀]

def dot_S8192x512_S512x4096_S8192x4096_1_0_0_1_n_n : DotDims S8192x512 S512x4096 S8192x4096 where
  lhsContracting := [1]
  rhsContracting := [0]
  lhsNonContracting := [0]
  rhsNonContracting := [1]
  lhsBatch := []
  rhsBatch := []
  wf := dot_S8192x512_S512x4096_S8192x4096_1_0_0_1_n_n_wf
def dot_S8192x1024_S1024x4096_S8192x4096_1_0_0_1_n_n : DotDims S8192x1024 S1024x4096 S8192x4096 where
  lhsContracting := [1]
  rhsContracting := [0]
  lhsNonContracting := [0]
  rhsNonContracting := [1]
  lhsBatch := []
  rhsBatch := []
  wf := dot_S8192x1024_S1024x4096_S8192x4096_1_0_0_1_n_n_wf

class Facts : Prop extends Facts₀ where

variable [Facts]
-- ==== Proof.Spec.lean ====
/-
  The cell both programs compute, as functions of the ten argument arrays over the extended reals.

  For a batch row b and a gate column j (0 ≤ j < 4096) the pre-activation is

      gate b j = ((Σ_k inp[b,k]·W_ih[j,k] + Σ_k hx[b,k]·W_hh[j,k]) + ((b_ih[j] + b_hh[j]) + mu[j])) + sigma[j]·eps[b,j].

  Hidden unit h (0 ≤ h < 1024) owns the four columns h, h+1024, h+2048, h+3072 (input, forget, cell, output), and

      cy[b,h] = logistic(gate b (h+1024))·cx[b,h] + logistic(gate b h)·tanh(gate b (h+2048)),
      hy[b,h] = logistic(gate b (h+3072))·tanh(cy[b,h]).

  Addition of extended reals is commutative and associative, infinities included, so the order in which the five
  summands of a pre-activation are added is immaterial (`regroup`): nothing here needs the inputs to be finite.
  The logistic function is by definition 1 / (1 + e^(-x)) with the extended-real conventions of division and of
  the exponential; spelling it out with the float pattern of 1.0 gives the same number (`logistic_spelled`).
-/
import Idealize.ShloMosaic.PureOps.Ideal
import Idealize.ShloMosaic.Lib.ValueIdx

noncomputable section

namespace Cert.LstmCell

open Idealize.ShloMosaic Idealize.ShloMosaic.ValueIdx

/-- Index types of the argument arrays: batch × features, batch × hidden, gates × features, gates × hidden,
    gates, batch × gates. -/
abbrev IdxBF := (⟨2, ![8192, 512]⟩ : Shape).Idx
abbrev IdxBH := (⟨2, ![8192, 1024]⟩ : Shape).Idx
abbrev IdxGF := (⟨2, ![4096, 512]⟩ : Shape).Idx
abbrev IdxGH := (⟨2, ![4096, 1024]⟩ : Shape).Idx
abbrev IdxG := (⟨1, ![4096]⟩ : Shape).Idx
abbrev IdxBG := (⟨2, ![8192, 4096]⟩ : Shape).Idx

/-- Column `h + o` of the gate axis, for a hidden unit `h` and a gate offset `o` ∈ {0, 1024, 2048, 3072}. -/
abbrev col (o : Nat) (ho : o + 1024 ≤ 4096) (h : Fin 1024) : Fin 4096 := ⟨h.val + o, by have := h.isLt; omega⟩

variable (inp : IdxBF → EReal) (hx : IdxBH → EReal) (wih : IdxGF → EReal) (whh : IdxGH → EReal)
  (bih bhh mu sg : IdxG → EReal) (eps : IdxBG → EReal) (cx : IdxBH → EReal)

/-- The pre-activation of gate column `j` for batch row `b`. -/
def gate (b : Fin 8192) (j : Fin 4096) : EReal :=
  (((∑ k : Fin 512, inp (ix2 b k) * wih (ix2 j k)) + (∑ k : Fin 1024, hx (ix2 b k) * whh (ix2 j k)))
      + ((bih (ix1 j) + bhh (ix1 j)) + mu (ix1 j)))
    + sg (ix1 j) * eps (ix2 b j)

/-- The new cell state of hidden unit `h` in batch row `b`. -/
def cyAt (b : Fin 8192) (h : Fin 1024) : EReal :=
  Ideal.logistic (gate inp hx wih whh bih bhh mu sg eps b (col 1024 (by decide) h)) * cx (ix2 b h)
    + Ideal.logistic (gate inp hx wih whh bih bhh mu sg eps b (col 0 (by decide) h))
      * Ideal.tanh (gate inp hx wih whh bih bhh mu sg eps b (col 2048 (by decide) h))

/-- The new hidden state of hidden unit `h` in batch row `b`. -/
def hyAt (b : Fin 8192) (h : Fin 1024) : EReal :=
  Ideal.logistic (gate inp hx wih whh bih bhh mu sg eps b (col 3072 (by decide) h))
    * Ideal.tanh (cyAt inp hx wih whh bih bhh mu sg eps cx b h)

/-- The new cell state as an array. -/
def cyArr : IdxBH → EReal := fun i => cyAt inp hx wih whh bih bhh mu sg eps cx (i 0) (i 1)

/-- The new hidden state as an array. -/
def hyArr : IdxBH → EReal := fun i => hyAt inp hx wih whh bih bhh mu sg eps cx (i 0) (i 1)

/-- Five summands added as ((((s₁ + a) + s₂) + b) + (c + p)) or as ((s₁ + s₂) + ((a + b) + c)) + p: the same
    extended real, by commutativity and associativity alone. -/
theorem regroup (s₁ s₂ a b c p : EReal) :
    (((s₁ + a) + s₂) + b) + (c + p) = ((s₁ + s₂) + ((a + b) + c)) + p := by
  simp only [add_assoc, add_comm, add_left_comm]

/-- The binary32 pattern of 1.0 denotes the extended real 1. -/
theorem ofBits_one_f32 : Ideal.ofBits .f32 0x3F800000#32 = 1 := by
  simp [Ideal.ofBits, Ideal.ieee, -EReal.coe_mul]; norm_num

/-- 1.0 / (1.0 + e^(-x)), the two constants given by their float pattern, is the logistic function of `x`. -/
theorem logistic_spelled (x : EReal) :
    Ideal.div (Ideal.ofBits .f32 0x3F800000#32) (Ideal.ofBits .f32 0x3F800000#32 + Ideal.exp (-x)) = Ideal.logistic x := by
  rw [ofBits_one_f32]; rfl

end Cert.LstmCell

end
-- ==== Proof.Gates.lean ====
/-
  The body's pre-activation block, read at an entry.

  A grid step holds 256 batch rows. Its pre-activation block is

      (l_inp · W_ihᵀ + l_hx · W_hhᵀ) + bias_row + sigma_row · eps_block,

  where each product contracts the LAST axis of both operands into a zero accumulator, so its (r, q) entry is the sum
  over k of l[r,k]·W[q,k]; the two [1, 4096] rows are broadcast along the 256 rows, so entry (r, q) reads their
  (0, q) element. Narrowing a float to a shorter format does not change an extended real, and a shape cast to the same shape
  moves nothing.
-/
import proofs.«111487_j85194971283616_2_alg».proof.Proof.Gen.KernelIdeal.Skeleton
import proofs.«111487_j85194971283616_2_alg».proof.Proof.Spec
import Idealize.ShloMosaic.Lib.Pipeline.Value
import Idealize.ShloMosaic.Lib.ValueIdx
import Idealize.ShloMosaic.PureOps.Ideal.Laws

noncomputable section

namespace Cert.LstmCell.Kern

open Idealize.ShloMosaic Idealize.ShloMosaic.ValueIdx Cert.KernelIdeal Cert.KernelIdeal.Gen Cert.LstmCell

/-- The left operand's row coordinate is the output's row. -/
theorem lhs_row_ih (j : S256x4096.Idx) (k : dot_S256x512_S4096x512_S256x4096_1_1_0_0_n_n.contr.Idx) : (dot_S256x512_S4096x512_S256x4096_1_1_0_0_n_n.lhsIdx j k 0).val = (j 0).val := by
  unfold DotDims.lhsIdx
  rw [dif_neg (show ¬(0 : Fin S256x512.rank) ∈ dot_S256x512_S4096x512_S256x4096_1_1_0_0_n_n.lhsBatch by decide),
    dif_pos (show (0 : Fin S256x512.rank) ∈ dot_S256x512_S4096x512_S256x4096_1_1_0_0_n_n.lhsNonContracting by decide)]
  rfl

/-- The right operand's row coordinate is the output's column. -/
theorem rhs_row_ih (j : S256x4096.Idx) (k : dot_S256x512_S4096x512_S256x4096_1_1_0_0_n_n.contr.Idx) : (dot_S256x512_S4096x512_S256x4096_1_1_0_0_n_n.rhsIdx j k 0).val = (j 1).val := by
  unfold DotDims.rhsIdx
  rw [dif_neg (show ¬(0 : Fin S4096x512.rank) ∈ dot_S256x512_S4096x512_S256x4096_1_1_0_0_n_n.rhsBatch by decide),
    dif_pos (show (0 : Fin S4096x512.rank) ∈ dot_S256x512_S4096x512_S256x4096_1_1_0_0_n_n.rhsNonContracting by decide)]
  rfl

/-- The input product of a grid step at (r, q): the sum over the 512 features k of l[r,k]·W[q,k]. -/
theorem matmul_ih (l : FVec Ideal S256x512 .bf16) (w : FVec Ideal S4096x512 .bf16) (r : Fin 256) (q : Fin 4096) :
    matmul dot_S256x512_S4096x512_S256x4096_1_1_0_0_n_n none l w (constant (F := Ideal) S256x4096 .f32 0x00000000#32) (ix2 r q)
      = ∑ k : Fin 512, l (ix2 r k) * w (ix2 q k) := by
  simp only [matmul]
  rw [Ideal.matmul_constant_zero_apply, ← Equiv.sum_comp (contrEquiv1 dot_S256x512_S4096x512_S256x4096_1_1_0_0_n_n 512 rfl rfl).symm]
  refine Finset.sum_congr rfl fun k _ => ?_
  have hk := contrEquiv1_symm_val dot_S256x512_S4096x512_S256x4096_1_1_0_0_n_n 512 rfl rfl k
  have el : dot_S256x512_S4096x512_S256x4096_1_1_0_0_n_n.lhsIdx (ix2 r q) ((contrEquiv1 dot_S256x512_S4096x512_S256x4096_1_1_0_0_n_n 512 rfl rfl).symm k) = ix2 r k :=
    funext fun a => Fin.ext (by
      match a with
      | ⟨0, _⟩ => exact lhs_row_ih _ _
      | ⟨1, _⟩ => exact (dot_S256x512_S4096x512_S256x4096_1_1_0_0_n_n.lhsIdx_val_of_single rfl _ _).trans hk)
  have er : dot_S256x512_S4096x512_S256x4096_1_1_0_0_n_n.rhsIdx (ix2 r q) ((contrEquiv1 dot_S256x512_S4096x512_S256x4096_1_1_0_0_n_n 512 rfl rfl).symm k) = ix2 q k :=
    funext fun a => Fin.ext (by
      match a with
      | ⟨0, _⟩ => exact rhs_row_ih _ _
      | ⟨1, _⟩ => exact (dot_S256x512_S4096x512_S256x4096_1_1_0_0_n_n.rhsIdx_val_of_single rfl _ _).trans hk)
  rw [el, er]

/-- The left operand's row coordinate is the output's row. -/
theorem lhs_row_hh (j : S256x4096.Idx) (k : dot_S256x1024_S4096x1024_S256x4096_1_1_0_0_n_n.contr.Idx) : (dot_S256x1024_S4096x1024_S256x4096_1_1_0_0_n_n.lhsIdx j k 0).val = (j 0).val := by
  unfold DotDims.lhsIdx
  rw [dif_neg (show ¬(0 : Fin S256x1024.rank) ∈ dot_S256x1024_S4096x1024_S256x4096_1_1_0_0_n_n.lhsBatch by decide),
    dif_pos (show (0 : Fin S256x1024.rank) ∈ dot_S256x1024_S4096x1024_S256x4096_1_1_0_0_n_n.lhsNonContracting by decide)]
  rfl

/-- The right operand's row coordinate is the output's column. -/
theorem rhs_row_hh (j : S256x4096.Idx) (k : dot_S256x1024_S4096x1024_S256x4096_1_1_0_0_n_n.contr.Idx) : (dot_S256x1024_S4096x1024_S256x4096_1_1_0_0_n_n.rhsIdx j k 0).val = (j 1).val := by
  unfold DotDims.rhsIdx
  rw [dif_neg (show ¬(0 : Fin S4096x1024.rank) ∈ dot_S256x1024_S4096x1024_S256x4096_1_1_0_0_n_n.rhsBatch by decide),
    dif_pos (show (0 : Fin S4096x1024.rank) ∈ dot_S256x1024_S4096x1024_S256x4096_1_1_0_0_n_n.rhsNonContracting by decide)]
  rfl

/-- The hidden product of a grid step at (r, q): the sum over the 1024 hidden units k of l[r,k]·W[q,k]. -/
theorem matmul_hh (l : FVec Ideal S256x1024 .bf16) (w : FVec Ideal S4096x1024 .bf16) (r : Fin 256) (q : Fin 4096) :
    matmul dot_S256x1024_S4096x1024_S256x4096_1_1_0_0_n_n none l w (constant (F := Ideal) S256x4096 .f32 0x00000000#32) (ix2 r q)
      = ∑ k : Fin 1024, l (ix2 r k) * w (ix2 q k) := by
  simp only [matmul]
  rw [Ideal.matmul_constant_zero_apply, ← Equiv.sum_comp (contrEquiv1 dot_S256x1024_S4096x1024_S256x4096_1_1_0_0_n_n 1024 rfl rfl).symm]
  refine Finset.sum_congr rfl fun k _ => ?_
  have hk := contrEquiv1_symm_val dot_S256x1024_S4096x1024_S256x4096_1_1_0_0_n_n 1024 rfl rfl k
  have el : dot_S256x1024_S4096x1024_S256x4096_1_1_0_0_n_n.lhsIdx (ix2 r q) ((contrEquiv1 dot_S256x1024_S4096x1024_S256x4096_1_1_0_0_n_n 1024 rfl rfl).symm k) = ix2 r k :=
    funext fun a => Fin.ext (by
      match a with
      | ⟨0, _⟩ => exact lhs_row_hh _ _
      | ⟨1, _⟩ => exact (dot_S256x1024_S4096x1024_S256x4096_1_1_0_0_n_n.lhsIdx_val_of_single rfl _ _).trans hk)
  have er : dot_S256x1024_S4096x1024_S256x4096_1_1_0_0_n_n.rhsIdx (ix2 r q) ((contrEquiv1 dot_S256x1024_S4096x1024_S256x4096_1_1_0_0_n_n 1024 rfl rfl).symm k) = ix2 q k :=
    funext fun a => Fin.ext (by
      match a with
      | ⟨0, _⟩ => exact rhs_row_hh _ _
      | ⟨1, _⟩ => exact (dot_S256x1024_S4096x1024_S256x4096_1_1_0_0_n_n.rhsIdx_val_of_single rfl _ _).trans hk)
  rw [el, er]

/-- A [1, 4096] row, cast to its own shape and broadcast along 256 rows, read at (r, q), is its (0, q) element. -/
theorem row_bcast (v : Vec Ideal S1x4096 .f32) (hc : S1x4096.ShapeCasts S1x4096) (hb : S1x4096.Broadcasts S256x4096)
    (r : Fin 256) (q : Fin 4096) :
    broadcastTo S256x4096 (shapeCast S1x4096 v hc) hb (ix2 r q) = v (ix2 0 q) := by
  rw [shapeCast_self]
  exact broadcastTo_apply v hb (ix2 r q) (ix2 0 q) (fun a => match a with
    | ⟨0, _⟩ => by show (0 : Nat) = if (1 : Nat) = 1 then 0 else r.val; rw [if_pos rfl]
    | ⟨1, _⟩ => by show q.val = if (4096 : Nat) = 1 then 0 else q.val; rw [if_neg (by decide)])

/-- One grid step's pre-activation at (r, q), as a function of the step's blocks: the inputs' rows `x0`, the hidden
    states' rows `x1`, the noise rows `x3`, the two weight arrays `x4`, `x5`, the bias row `x6` and the sigma row `x7`. -/
def blockGate (x0 : Vec Ideal S256x512 .f32) (x1 : Vec Ideal S256x1024 .f32) (x3 : Vec Ideal S256x4096 .f32)
    (x4 : Vec Ideal S4096x512 .bf16) (x5 : Vec Ideal S4096x1024 .bf16) (x6 x7 : Vec Ideal S1x4096 .f32)
    (r : Fin 256) (q : Fin 4096) : EReal :=
  (((∑ k : Fin 512, x0 (ix2 r k) * x4 (ix2 q k)) + (∑ k : Fin 1024, x1 (ix2 r k) * x5 (ix2 q k)))
      + x6 (ix2 0 q))
    + x7 (ix2 0 q) * x3 (ix2 r q)

/-- One grid step's new cell state at (r, h), with the old cell states' rows `x2`. -/
def blockCy (x0 : Vec Ideal S256x512 .f32) (x1 x2 : Vec Ideal S256x1024 .f32) (x3 : Vec Ideal S256x4096 .f32)
    (x4 : Vec Ideal S4096x512 .bf16) (x5 : Vec Ideal S4096x1024 .bf16) (x6 x7 : Vec Ideal S1x4096 .f32)
    (r : Fin 256) (h : Fin 1024) : EReal :=
  Ideal.logistic (blockGate x0 x1 x3 x4 x5 x6 x7 r (col 1024 (by decide) h)) * x2 (ix2 r h)
    + Ideal.logistic (blockGate x0 x1 x3 x4 x5 x6 x7 r (col 0 (by decide) h))
      * Ideal.tanh (blockGate x0 x1 x3 x4 x5 x6 x7 r (col 2048 (by decide) h))

/-- One grid step's new hidden state at (r, h). -/
def blockHy (x0 : Vec Ideal S256x512 .f32) (x1 x2 : Vec Ideal S256x1024 .f32) (x3 : Vec Ideal S256x4096 .f32)
    (x4 : Vec Ideal S4096x512 .bf16) (x5 : Vec Ideal S4096x1024 .bf16) (x6 x7 : Vec Ideal S1x4096 .f32)
    (r : Fin 256) (h : Fin 1024) : EReal :=
  Ideal.logistic (blockGate x0 x1 x3 x4 x5 x6 x7 r (col 3072 (by decide) h))
    * Ideal.tanh (blockCy x0 x1 x2 x3 x4 x5 x6 x7 r h)

/-- The body's pre-activation block at (r, q) is `blockGate` of the blocks it loaded. -/
theorem gates_at (x0 : Vec Ideal S256x512 .f32) (x1 : Vec Ideal S256x1024 .f32) (x3 : Vec Ideal S256x4096 .f32)
    (x4 : Vec Ideal S4096x512 .bf16) (x5 : Vec Ideal S4096x1024 .bf16) (x6 x7 : Vec Ideal S1x4096 .f32)
    (r : Fin 256) (q : Fin 4096) :
    k0_pay1 (F := Ideal) x0 x1 x4 x5 x6 x7 x3 (ix2 r q) = blockGate x0 x1 x3 x4 x5 x6 x7 r q := by
  unfold k0_pay1 blockGate
  rw [addf_apply, addf_apply, addf_apply, mulf_apply, matmul_ih, matmul_hh, row_bcast, row_bcast]
  simp only [shapeCast_self]
  rfl

end Cert.LstmCell.Kern

end
-- ==== Proof.Body.lean ====
/-
  What the body leaves in its two output blocks, entry by entry.

  The body loads its eight blocks whole, forms the pre-activation block, cuts it into the four gate slices (columns
  h, h + 1024, h + 2048, h + 3072 of a row), and stores the new cell state
      logistic(forget)·c + logistic(input)·tanh(cell)
  and the new hidden state  logistic(output)·tanh(new cell state), each as one whole-block store. So the block
  entry (r, h) of either output is the step's `blockCy` / `blockHy` at (r, h).
-/
import proofs.«111487_j85194971283616_2_alg».proof.Proof.Gen.KernelIdeal.Value
import proofs.«111487_j85194971283616_2_alg».proof.Proof.Gates

noncomputable section

namespace Cert.LstmCell.Kern

open Idealize.ShloMosaic Idealize.ShloMosaic.ValueIdx Cert.KernelIdeal Cert.KernelIdeal.Gen Cert.LstmCell

/-- The offsets of a whole-block access are all zero. -/
theorem zero_off : (![0, 0] : Fin 2 → Nat) = fun _ => 0 := funext fun a => by fin_cases a <;> rfl

variable (x0 : Vec Ideal S256x512 .f32) (x1 x2 : Vec Ideal S256x1024 .f32) (x3 : Vec Ideal S256x4096 .f32)
  (x4 : Vec Ideal S4096x512 .bf16) (x5 : Vec Ideal S4096x1024 .bf16) (x6 x7 : Vec Ideal S1x4096 .f32)

/-- The cell-state block after the body, at (r, h). -/
theorem out9_at (r : Fin 256) (h : Fin 1024) :
    out0_9 (F := Ideal) x0 x1 x2 x3 x4 x5 x6 x7 (ix2 r h) = blockCy x0 x1 x2 x3 x4 x5 x6 x7 r h := by
  unfold out0_9
  simp only [View.ld_unit_zero (S := S256x512) zero_off,
    View.ld_unit_zero (S := S256x1024) zero_off,
    View.ld_unit_zero (S := S4096x512) zero_off,
    View.ld_unit_zero (S := S4096x1024) zero_off,
    View.ld_unit_zero (S := S1x4096) zero_off,
    View.ld_unit_zero (S := S256x4096) zero_off]
  rw [Cert.KernelIdeal.Value.canon9_eq]
  have i0 : Cert.KernelIdeal.Value.ix9_0 (ix2 r h) = ix2 r (col 1024 (by decide) h) :=
    funext fun a => Fin.ext (by match a with | ⟨0, _⟩ => rfl | ⟨1, _⟩ => rfl)
  have i1 : Cert.KernelIdeal.Value.ix9_1 (ix2 r h) = ix2 r h :=
    funext fun a => Fin.ext (by match a with | ⟨0, _⟩ => rfl | ⟨1, _⟩ => rfl)
  have i2 : Cert.KernelIdeal.Value.ix9_2 (ix2 r h) = ix2 r (col 0 (by decide) h) :=
    funext fun a => Fin.ext (by match a with | ⟨0, _⟩ => rfl | ⟨1, _⟩ => rfl)
  have i3 : Cert.KernelIdeal.Value.ix9_3 (ix2 r h) = ix2 r (col 2048 (by decide) h) :=
    funext fun a => Fin.ext (by match a with | ⟨0, _⟩ => rfl | ⟨1, _⟩ => rfl)
  show FloatOps.addf
      (FloatOps.mulf (FloatOps.logistic (k0_pay1 x0 x1 x4 x5 x6 x7 x3 (Cert.KernelIdeal.Value.ix9_0 (ix2 r h))))
        (x2 (Cert.KernelIdeal.Value.ix9_1 (ix2 r h))))
      (FloatOps.mulf (FloatOps.logistic (k0_pay1 x0 x1 x4 x5 x6 x7 x3 (Cert.KernelIdeal.Value.ix9_2 (ix2 r h))))
        (FloatOps.tanh (k0_pay1 x0 x1 x4 x5 x6 x7 x3 (Cert.KernelIdeal.Value.ix9_3 (ix2 r h))))) = _
  rw [i0, i1, i2, i3, gates_at, gates_at, gates_at]
  rfl

/-- The hidden-state block after the body, at (r, h). -/
theorem out8_at (r : Fin 256) (h : Fin 1024) :
    out0_8 (F := Ideal) x0 x1 x2 x3 x4 x5 x6 x7 (ix2 r h) = blockHy x0 x1 x2 x3 x4 x5 x6 x7 r h := by
  unfold out0_8
  simp only [View.ld_unit_zero (S := S256x512) zero_off,
    View.ld_unit_zero (S := S256x1024) zero_off,
    View.ld_unit_zero (S := S4096x512) zero_off,
    View.ld_unit_zero (S := S4096x1024) zero_off,
    View.ld_unit_zero (S := S1x4096) zero_off,
    View.ld_unit_zero (S := S256x4096) zero_off]
  rw [Cert.KernelIdeal.Value.canon8_eq]
  have i0 : Cert.KernelIdeal.Value.ix8_0 (ix2 r h) = ix2 r (col 3072 (by decide) h) :=
    funext fun a => Fin.ext (by match a with | ⟨0, _⟩ => rfl | ⟨1, _⟩ => rfl)
  have i1 : Cert.KernelIdeal.Value.ix8_1 (ix2 r h) = ix2 r (col 1024 (by decide) h) :=
    funext fun a => Fin.ext (by match a with | ⟨0, _⟩ => rfl | ⟨1, _⟩ => rfl)
  have i2 : Cert.KernelIdeal.Value.ix8_2 (ix2 r h) = ix2 r h :=
    funext fun a => Fin.ext (by match a with | ⟨0, _⟩ => rfl | ⟨1, _⟩ => rfl)
  have i3 : Cert.KernelIdeal.Value.ix8_3 (ix2 r h) = ix2 r (col 0 (by decide) h) :=
    funext fun a => Fin.ext (by match a with | ⟨0, _⟩ => rfl | ⟨1, _⟩ => rfl)
  have i4 : Cert.KernelIdeal.Value.ix8_4 (ix2 r h) = ix2 r (col 2048 (by decide) h) :=
    funext fun a => Fin.ext (by match a with | ⟨0, _⟩ => rfl | ⟨1, _⟩ => rfl)
  show FloatOps.mulf (FloatOps.logistic (k0_pay1 x0 x1 x4 x5 x6 x7 x3 (Cert.KernelIdeal.Value.ix8_0 (ix2 r h))))
      (FloatOps.tanh (FloatOps.addf
        (FloatOps.mulf (FloatOps.logistic (k0_pay1 x0 x1 x4 x5 x6 x7 x3 (Cert.KernelIdeal.Value.ix8_1 (ix2 r h))))
          (x2 (Cert.KernelIdeal.Value.ix8_2 (ix2 r h))))
        (FloatOps.mulf (FloatOps.logistic (k0_pay1 x0 x1 x4 x5 x6 x7 x3 (Cert.KernelIdeal.Value.ix8_3 (ix2 r h))))
          (FloatOps.tanh (k0_pay1 x0 x1 x4 x5 x6 x7 x3 (Cert.KernelIdeal.Value.ix8_4 (ix2 r h))))))) = _
  rw [i0, i1, i2, i3, i4, gates_at, gates_at, gates_at, gates_at]
  rfl

end Cert.LstmCell.Kern

end
-- ==== Proof.HostPrefix.lean ====
/-
  What the region finds in the four arrays the host wrote before it.

  The two weight arrays are narrowed to a shorter float format, which leaves every extended real as it is; the three
  additive vectors are summed as (b_ih + b_hh) + mu and laid out as one row [1, 4096]; sigma is laid out as one
  row [1, 4096]. A [4096] → [1, 4096] reshape keeps the row-major position, so the (0, q) entry of a row is the
  vector's q-th element.
-/
import proofs.«111487_j85194971283616_2_alg».proof.Proof.Gen.KernelIdeal.Frame
import proofs.«111487_j85194971283616_2_alg».proof.Proof.Spec
import Idealize.ShloMosaic.Lib.StableHlo.Run
import Idealize.ShloMosaic.Lib.Pipeline.Value
import Idealize.ShloMosaic.Lib.ValueIdx

noncomputable section

namespace Cert.LstmCell.Kern

open Idealize.ShloMosaic Idealize.ShloMosaic.TcCoe Idealize.ShloMosaic.ValueIdx Idealize.ShloMosaic.StableHlo
  Idealize.SL.Sem Cert.KernelIdeal Cert.KernelIdeal.Gen Cert.LstmCell

variable (m : (ℓ : Loc nD τ sig) → Buf (Elt Ideal) ℓ) (c : Dev nD)

/-- The ten argument arrays on core `c`, as functions from their indices to extended reals: inputs, hidden states,
    cell states, input weights, hidden weights, the two biases, mu, sigma, noise. -/
abbrev A0 : IdxBF → EReal := m ((c : Thread nD τ).loc main_arg0)
abbrev A1 : IdxBH → EReal := m ((c : Thread nD τ).loc main_arg1)
abbrev A2 : IdxBH → EReal := m ((c : Thread nD τ).loc main_arg2)
abbrev A3 : IdxGF → EReal := m ((c : Thread nD τ).loc main_arg3)
abbrev A4 : IdxGH → EReal := m ((c : Thread nD τ).loc main_arg4)
abbrev A5 : IdxG → EReal := m ((c : Thread nD τ).loc main_arg5)
abbrev A6 : IdxG → EReal := m ((c : Thread nD τ).loc main_arg6)
abbrev A7 : IdxG → EReal := m ((c : Thread nD τ).loc main_arg7)
abbrev A8 : IdxG → EReal := m ((c : Thread nD τ).loc main_arg8)
abbrev A9 : IdxBG → EReal := m ((c : Thread nD τ).loc main_arg9)

/-- The narrowed input weights are the input weights. -/
theorem entry_wih : (V m c main_v0 : S4096x512.Idx → EReal) = A3 m c := by
  dsimp only [V, hostOps0]; after_results; rfl

/-- The narrowed hidden weights are the hidden weights. -/
theorem entry_whh : (V m c main_v1 : S4096x1024.Idx → EReal) = A4 m c := by
  dsimp only [V, hostOps0]; after_results; rfl

/-- A vector laid out as one row, read at (0, q), is its q-th element. -/
theorem row_of_vec (v : S4096.Idx → EReal) (h : S4096.ShapeCasts S1x4096) (q : Fin 4096) :
    shapeCast S1x4096 v h (ix2 0 q) = v (ix1 q) := by
  refine shapeCast_apply v h (ix2 0 q) (ix1 q) ?_
  rw [Shape.rowMajor_val_one, Shape.rowMajor_val_two]
  show q.val = 0 * 4096 + q.val
  omega

/-- The combined bias row at (0, q) is (b_ih[q] + b_hh[q]) + mu[q]. -/
theorem entry_bias (q : Fin 4096) :
    (V m c main_v4 : S1x4096.Idx → EReal) (ix2 0 q) = (A5 m c (ix1 q) + A6 m c (ix1 q)) + A7 m c (ix1 q) := by
  have e : (V m c main_v4 : S1x4096.Idx → EReal)
      = shapeCast S1x4096 (addf (F := Ideal) (s := S4096) (φ := .f32)
          (addf (F := Ideal) (s := S4096) (φ := .f32) (A5 m c) (A6 m c)) (A7 m c))
          Cert.KernelIdeal.Gen.shapeCasts_S4096_S1x4096 := by
    dsimp only [V, hostOps0]; after_results; rfl
  rw [e, row_of_vec]
  rfl

/-- The sigma row at (0, q) is sigma[q]. -/
theorem entry_sigma (q : Fin 4096) : (V m c main_v5 : S1x4096.Idx → EReal) (ix2 0 q) = A8 m c (ix1 q) := by
  have e : (V m c main_v5 : S1x4096.Idx → EReal)
      = shapeCast S1x4096 (A8 m c) Cert.KernelIdeal.Gen.shapeCasts_S4096_S1x4096 := by
    dsimp only [V, hostOps0]; after_results; rfl
  rw [e, row_of_vec]

end Cert.LstmCell.Kern

end
-- ==== Proof.Point.lean ====
/-
  From grid steps to whole arrays.

  Step t (0 ≤ t < 32) works on batch rows 256·t … 256·t + 255: the blocks of the inputs, the hidden and cell states and
  the noise are those rows of their arrays, the two weight arrays and the two rows are taken whole at every step. So
  step t's pre-activation at (r, q) is `gate (256·t + r) q` of the argument arrays, and the two blocks it writes back
  are rows 256·t … 256·t + 255 of the new hidden and cell states. The 32 blocks of an output are disjoint and
  cover its 8192 rows (row b is in the block of step b / 256), so after the run each output array is the whole function.
-/
import proofs.«111487_j85194971283616_2_alg».proof.Proof.Body
import proofs.«111487_j85194971283616_2_alg».proof.Proof.HostPrefix

noncomputable section

namespace Cert.LstmCell.Kern

open Idealize.ShloMosaic Idealize.ShloMosaic.TcCoe Idealize.ShloMosaic.ValueIdx Idealize.SL.Sem
  Cert.KernelIdeal Cert.KernelIdeal.Gen Cert.LstmCell
open Idealize.ShloMosaic.Pipeline (Dat)

variable (m : (ℓ : Loc nD τ sig) → Buf (Elt Ideal) ℓ) (ρ : Dev nD → PrngReg)

/-- The grid has 32 steps. -/
theorem step_lt (t : Fin cfg0.N) : t.val < 32 := lt_of_lt_of_eq t.isLt N_0

/-- The batch row that is row `r` of step `t`'s blocks. -/
abbrev row (t : Fin cfg0.N) (r : Fin 256) : Fin 8192 :=
  ⟨t.val * 256 + r.val, by have := step_lt t; have := r.isLt; omega⟩

/-- The printed index maps, decided over the 32 steps: the six batch-tiled windows are at block (t, 0), the four
    resident ones at block (0, 0). -/
theorem idx_facts : ∀ t : Fin cfg0.N,
    win0_0.index t (0 : Fin 2) = t.val
    ∧ win0_0.index t (1 : Fin 2) = 0
    ∧ win0_1.index t (0 : Fin 2) = t.val
    ∧ win0_1.index t (1 : Fin 2) = 0
    ∧ win0_2.index t (0 : Fin 2) = t.val
    ∧ win0_2.index t (1 : Fin 2) = 0
    ∧ win0_3.index t (0 : Fin 2) = t.val
    ∧ win0_3.index t (1 : Fin 2) = 0
    ∧ win0_8.index t (0 : Fin 2) = t.val
    ∧ win0_8.index t (1 : Fin 2) = 0
    ∧ win0_9.index t (0 : Fin 2) = t.val
    ∧ win0_9.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = 0
    ∧ win0_7.index t (1 : Fin 2) = 0 :=
  (by decide +kernel : ∀ t : Fin grid0.N, _)

/-- Step t's input block is rows 256·t … of the inputs. -/
theorem blk_inp (c : Dev nD) (t : Fin cfg0.N) (r : Fin 256) (k : Fin 512) :
    (iblk m c 0 t : Vec Ideal S256x512 .f32) (ix2 r k) = A0 m c (ix2 (row t r) k) := by
  have f := idx_facts t
  show V m c main_arg0 (((cfg0.win 0).blk t).view.emb (ix2 r k)) = _
  rw [V_main_arg0]
  refine congrArg (A0 m c) (funext fun a => Fin.ext ?_)
  match a with
  | ⟨0, _⟩ => show win0_0.index t (0 : Fin 2) * 256 + 1 * r.val = t.val * 256 + r.val; omega
  | ⟨1, _⟩ => show win0_0.index t (1 : Fin 2) * 512 + 1 * k.val = k.val; omega

/-- Step t's hidden-state block is rows 256·t … of the hidden states. -/
theorem blk_hx (c : Dev nD) (t : Fin cfg0.N) (r : Fin 256) (k : Fin 1024) :
    (iblk m c 1 t : Vec Ideal S256x1024 .f32) (ix2 r k) = A1 m c (ix2 (row t r) k) := by
  have f := idx_facts t
  show V m c main_arg1 (((cfg0.win 1).blk t).view.emb (ix2 r k)) = _
  rw [V_main_arg1]
  refine congrArg (A1 m c) (funext fun a => Fin.ext ?_)
  match a with
  | ⟨0, _⟩ => show win0_1.index t (0 : Fin 2) * 256 + 1 * r.val = t.val * 256 + r.val; omega
  | ⟨1, _⟩ => show win0_1.index t (1 : Fin 2) * 1024 + 1 * k.val = k.val; omega

/-- Step t's cell-state block is rows 256·t … of the cell states. -/
theorem blk_cx (c : Dev nD) (t : Fin cfg0.N) (r : Fin 256) (k : Fin 1024) :
    (iblk m c 2 t : Vec Ideal S256x1024 .f32) (ix2 r k) = A2 m c (ix2 (row t r) k) := by
  have f := idx_facts t
  show V m c main_arg2 (((cfg0.win 2).blk t).view.emb (ix2 r k)) = _
  rw [V_main_arg2]
  refine congrArg (A2 m c) (funext fun a => Fin.ext ?_)
  match a with
  | ⟨0, _⟩ => show win0_2.index t (0 : Fin 2) * 256 + 1 * r.val = t.val * 256 + r.val; omega
  | ⟨1, _⟩ => show win0_2.index t (1 : Fin 2) * 1024 + 1 * k.val = k.val; omega

/-- Step t's noise block is rows 256·t … of the noise. -/
theorem blk_eps (c : Dev nD) (t : Fin cfg0.N) (r : Fin 256) (k : Fin 4096) :
    (iblk m c 3 t : Vec Ideal S256x4096 .f32) (ix2 r k) = A9 m c (ix2 (row t r) k) := by
  have f := idx_facts t
  show V m c main_arg9 (((cfg0.win 3).blk t).view.emb (ix2 r k)) = _
  rw [V_main_arg9]
  refine congrArg (A9 m c) (funext fun a => Fin.ext ?_)
  match a with
  | ⟨0, _⟩ => show win0_3.index t (0 : Fin 2) * 256 + 1 * r.val = t.val * 256 + r.val; omega
  | ⟨1, _⟩ => show win0_3.index t (1 : Fin 2) * 4096 + 1 * k.val = k.val; omega

/-- Every step holds the whole input-weight array. -/
theorem blk_wih (c : Dev nD) (t : Fin cfg0.N) (q : Fin 4096) (k : Fin 512) :
    (iblk m c 4 t : Vec Ideal S4096x512 .bf16) (ix2 q k) = A3 m c (ix2 q k) := by
  have f := idx_facts t
  show V m c main_v0 (((cfg0.win 4).blk t).view.emb (ix2 q k)) = _
  rw [entry_wih]
  refine congrArg (A3 m c) (funext fun a => Fin.ext ?_)
  match a with
  | ⟨0, _⟩ => show win0_4.index t (0 : Fin 2) * 4096 + 1 * q.val = q.val; omega
  | ⟨1, _⟩ => show win0_4.index t (1 : Fin 2) * 512 + 1 * k.val = k.val; omega

/-- Every step holds the whole hidden-weight array. -/
theorem blk_whh (c : Dev nD) (t : Fin cfg0.N) (q : Fin 4096) (k : Fin 1024) :
    (iblk m c 5 t : Vec Ideal S4096x1024 .bf16) (ix2 q k) = A4 m c (ix2 q k) := by
  have f := idx_facts t
  show V m c main_v1 (((cfg0.win 5).blk t).view.emb (ix2 q k)) = _
  rw [entry_whh]
  refine congrArg (A4 m c) (funext fun a => Fin.ext ?_)
  match a with
  | ⟨0, _⟩ => show win0_5.index t (0 : Fin 2) * 4096 + 1 * q.val = q.val; omega
  | ⟨1, _⟩ => show win0_5.index t (1 : Fin 2) * 1024 + 1 * k.val = k.val; omega

/-- Every step holds the whole bias row: its (0, q) entry is (b_ih[q] + b_hh[q]) + mu[q]. -/
theorem blk_bias (c : Dev nD) (t : Fin cfg0.N) (q : Fin 4096) :
    (iblk m c 6 t : Vec Ideal S1x4096 .f32) (ix2 0 q) = (A5 m c (ix1 q) + A6 m c (ix1 q)) + A7 m c (ix1 q) := by
  have f := idx_facts t
  show V m c main_v4 (((cfg0.win 6).blk t).view.emb (ix2 0 q)) = _
  have e : ((cfg0.win 6).blk t).view.emb (ix2 0 q) = ix2 0 q := funext fun a => Fin.ext (by
    match a with
    | ⟨0, _⟩ => show win0_6.index t (0 : Fin 2) * 1 + 1 * 0 = 0; omega
    | ⟨1, _⟩ => show win0_6.index t (1 : Fin 2) * 4096 + 1 * q.val = q.val; omega)
  rw [e]
  exact entry_bias m c q

/-- Every step holds the whole sigma row: its (0, q) entry is sigma[q]. -/
theorem blk_sigma (c : Dev nD) (t : Fin cfg0.N) (q : Fin 4096) :
    (iblk m c 7 t : Vec Ideal S1x4096 .f32) (ix2 0 q) = A8 m c (ix1 q) := by
  have f := idx_facts t
  show V m c main_v5 (((cfg0.win 7).blk t).view.emb (ix2 0 q)) = _
  have e : ((cfg0.win 7).blk t).view.emb (ix2 0 q) = ix2 0 q := funext fun a => Fin.ext (by
    match a with
    | ⟨0, _⟩ => show win0_7.index t (0 : Fin 2) * 1 + 1 * 0 = 0; omega
    | ⟨1, _⟩ => show win0_7.index t (1 : Fin 2) * 4096 + 1 * q.val = q.val; omega)
  rw [e]
  exact entry_sigma m c q

/-- Step t's pre-activation at (r, q) is the pre-activation of batch row 256·t + r. -/
theorem gate_point (c : Dev nD) (t : Fin cfg0.N) (r : Fin 256) (q : Fin 4096) :
    blockGate (iblk m c 0 t) (iblk m c 1 t) (iblk m c 3 t) (iblk m c 4 t) (iblk m c 5 t) (iblk m c 6 t) (iblk m c 7 t) r q = gate (A0 m c) (A1 m c) (A3 m c) (A4 m c) (A5 m c) (A6 m c) (A7 m c) (A8 m c) (A9 m c) (row t r) q := by
  unfold blockGate gate
  simp only [blk_inp, blk_hx, blk_eps, blk_wih, blk_whh, blk_bias, blk_sigma]

/-- Step t's new cell state at (r, h) is that of batch row 256·t + r. -/
theorem cy_point (c : Dev nD) (t : Fin cfg0.N) (r : Fin 256) (h : Fin 1024) :
    blockCy (iblk m c 0 t) (iblk m c 1 t) (iblk m c 2 t) (iblk m c 3 t) (iblk m c 4 t) (iblk m c 5 t) (iblk m c 6 t) (iblk m c 7 t) r h = cyAt (A0 m c) (A1 m c) (A3 m c) (A4 m c) (A5 m c) (A6 m c) (A7 m c) (A8 m c) (A9 m c) (A2 m c) (row t r) h := by
  unfold blockCy cyAt
  rw [gate_point, gate_point, gate_point, blk_cx]

/-- Step t's new hidden state at (r, h) is that of batch row 256·t + r. -/
theorem hy_point (c : Dev nD) (t : Fin cfg0.N) (r : Fin 256) (h : Fin 1024) :
    blockHy (iblk m c 0 t) (iblk m c 1 t) (iblk m c 2 t) (iblk m c 3 t) (iblk m c 4 t) (iblk m c 5 t) (iblk m c 6 t) (iblk m c 7 t) r h = hyAt (A0 m c) (A1 m c) (A3 m c) (A4 m c) (A5 m c) (A6 m c) (A7 m c) (A8 m c) (A9 m c) (A2 m c) (row t r) h := by
  unfold blockHy hyAt
  rw [gate_point, cy_point]

/-- What step t writes back to the hidden-state output is block t of the new hidden states. -/
theorem flushed8_eq (c : Dev nD) (t : Fin cfg0.N) :
    (dats m 0 c).flushed 8 t
      = ((cfg0.win 8).blk t).view.read (Elt Ideal) (hyArr (A0 m c) (A1 m c) (A3 m c) (A4 m c) (A5 m c) (A6 m c) (A7 m c) (A8 m c) (A9 m c) (A2 m c)) := by
  rw [Cert.KernelIdeal.Value.flushed8]
  funext y
  show out0_8 (iblk m c 0 t) (iblk m c 1 t) (iblk m c 2 t) (iblk m c 3 t) (iblk m c 4 t) (iblk m c 5 t) (iblk m c 6 t) (iblk m c 7 t) y
    = hyArr (A0 m c) (A1 m c) (A3 m c) (A4 m c) (A5 m c) (A6 m c) (A7 m c) (A8 m c) (A9 m c) (A2 m c) (((cfg0.win 8).blk t).view.emb y)
  obtain ⟨r, h, rfl⟩ : ∃ (r : Fin 256) (h : Fin 1024), y = ix2 r h := ⟨y 0, y 1, eq_ix2 y⟩
  have f := idx_facts t
  have e : ((cfg0.win 8).blk t).view.emb (ix2 r h) = ix2 (row t r) h := funext fun a => Fin.ext (by
    match a with
    | ⟨0, _⟩ => show win0_8.index t (0 : Fin 2) * 256 + 1 * r.val = t.val * 256 + r.val; omega
    | ⟨1, _⟩ => show win0_8.index t (1 : Fin 2) * 1024 + 1 * h.val = h.val; omega)
  rw [e]
  refine (out8_at _ _ _ _ _ _ _ _ r h).trans ?_
  exact hy_point m c t r h

/-- An index of the array lies in step `t`'s block iff each coordinate lies in the block's range on its axis. -/
theorem mem_blk8 (t : Fin cfg0.N) (i : S8192x1024.Idx) :
    i ∈ ((cfg0.win 8).blk t).view.set ↔ ∀ a : Fin 2, win0_8.index t a * S256x1024.size a ≤ (i a).val
      ∧ (i a).val < win0_8.index t a * S256x1024.size a + S256x1024.size a := by
  show i ∈ ((View.whole main_v6_0).slice (win0_8.rect t)).set ↔ _
  rw [View.set_slice_whole, Rect.mem_set_unit]
  exact Iff.rfl

/-- Every batch row b lies in the block of step b / 256: the 32 blocks cover the array. -/
theorem cover8 (i : S8192x1024.Idx) :
    ∃ t : Fin cfg0.N, (cfg0.win 8).flush t = true ∧ i ∈ ((cfg0.win 8).blk t).view.set := by
  have hi0 : (i 0).val < 8192 := (i 0).isLt
  have hi1 : (i 1).val < 1024 := (i 1).isLt
  have ht : ∃ t : Fin cfg0.N, t.val = (i 0).val / 256 :=
    ⟨⟨(i 0).val / 256, lt_of_lt_of_eq (show (i 0).val / 256 < 32 by omega) N_0.symm⟩, rfl⟩
  obtain ⟨t, ht⟩ := ht
  have f := idx_facts t
  refine ⟨t, flush0_8 t, ?_⟩
  rw [mem_blk8]
  intro a
  match a with
  | ⟨0, _⟩ =>
    show win0_8.index t (0 : Fin 2) * 256 ≤ (i 0).val ∧ (i 0).val < win0_8.index t (0 : Fin 2) * 256 + 256
    omega
  | ⟨1, _⟩ =>
    show win0_8.index t (1 : Fin 2) * 1024 ≤ (i 1).val ∧ (i 1).val < win0_8.index t (1 : Fin 2) * 1024 + 1024
    omega

/-- The array after the run. -/
theorem final8 (c : Dev nD) :
    (dats m 0 c).arrAt 8 cfg0.N = hyArr (A0 m c) (A1 m c) (A3 m c) (A4 m c) (A5 m c) (A6 m c) (A7 m c) (A8 m c) (A9 m c) (A2 m c) :=
  (dats m 0 c).arrAt_eq_of_cover 8 (hyArr (A0 m c) (A1 m c) (A3 m c) (A4 m c) (A5 m c) (A6 m c) (A7 m c) (A8 m c) (A9 m c) (A2 m c))
    (fun t _ => flushed8_eq m c t) cover8

/-- What step t writes back to the cell-state output is block t of the new cell states. -/
theorem flushed9_eq (c : Dev nD) (t : Fin cfg0.N) :
    (dats m 0 c).flushed 9 t
      = ((cfg0.win 9).blk t).view.read (Elt Ideal) (cyArr (A0 m c) (A1 m c) (A3 m c) (A4 m c) (A5 m c) (A6 m c) (A7 m c) (A8 m c) (A9 m c) (A2 m c)) := by
  rw [Cert.KernelIdeal.Value.flushed9]
  funext y
  show out0_9 (iblk m c 0 t) (iblk m c 1 t) (iblk m c 2 t) (iblk m c 3 t) (iblk m c 4 t) (iblk m c 5 t) (iblk m c 6 t) (iblk m c 7 t) y
    = cyArr (A0 m c) (A1 m c) (A3 m c) (A4 m c) (A5 m c) (A6 m c) (A7 m c) (A8 m c) (A9 m c) (A2 m c) (((cfg0.win 9).blk t).view.emb y)
  obtain ⟨r, h, rfl⟩ : ∃ (r : Fin 256) (h : Fin 1024), y = ix2 r h := ⟨y 0, y 1, eq_ix2 y⟩
  have f := idx_facts t
  have e : ((cfg0.win 9).blk t).view.emb (ix2 r h) = ix2 (row t r) h := funext fun a => Fin.ext (by
    match a with
    | ⟨0, _⟩ => show win0_9.index t (0 : Fin 2) * 256 + 1 * r.val = t.val * 256 + r.val; omega
    | ⟨1, _⟩ => show win0_9.index t (1 : Fin 2) * 1024 + 1 * h.val = h.val; omega)
  rw [e]
  refine (out9_at _ _ _ _ _ _ _ _ r h).trans ?_
  exact cy_point m c t r h

/-- An index of the array lies in step `t`'s block iff each coordinate lies in the block's range on its axis. -/
theorem mem_blk9 (t : Fin cfg0.N) (i : S8192x1024.Idx) :
    i ∈ ((cfg0.win 9).blk t).view.set ↔ ∀ a : Fin 2, win0_9.index t a * S256x1024.size a ≤ (i a).val
      ∧ (i a).val < win0_9.index t a * S256x1024.size a + S256x1024.size a := by
  show i ∈ ((View.whole main_v6_1).slice (win0_9.rect t)).set ↔ _
  rw [View.set_slice_whole, Rect.mem_set_unit]
  exact Iff.rfl

/-- Every batch row b lies in the block of step b / 256: the 32 blocks cover the array. -/
theorem cover9 (i : S8192x1024.Idx) :
    ∃ t : Fin cfg0.N, (cfg0.win 9).flush t = true ∧ i ∈ ((cfg0.win 9).blk t).view.set := by
  have hi0 : (i 0).val < 8192 := (i 0).isLt
  have hi1 : (i 1).val < 1024 := (i 1).isLt
  have ht : ∃ t : Fin cfg0.N, t.val = (i 0).val / 256 :=
    ⟨⟨(i 0).val / 256, lt_of_lt_of_eq (show (i 0).val / 256 < 32 by omega) N_0.symm⟩, rfl⟩
  obtain ⟨t, ht⟩ := ht
  have f := idx_facts t
  refine ⟨t, flush0_9 t, ?_⟩
  rw [mem_blk9]
  intro a
  match a with
  | ⟨0, _⟩ =>
    show win0_9.index t (0 : Fin 2) * 256 ≤ (i 0).val ∧ (i 0).val < win0_9.index t (0 : Fin 2) * 256 + 256
    omega
  | ⟨1, _⟩ =>
    show win0_9.index t (1 : Fin 2) * 1024 ≤ (i 1).val ∧ (i 1).val < win0_9.index t (1 : Fin 2) * 1024 + 1024
    omega

/-- The array after the run. -/
theorem final9 (c : Dev nD) :
    (dats m 0 c).arrAt 9 cfg0.N = cyArr (A0 m c) (A1 m c) (A3 m c) (A4 m c) (A5 m c) (A6 m c) (A7 m c) (A8 m c) (A9 m c) (A2 m c) :=
  (dats m 0 c).arrAt_eq_of_cover 9 (cyArr (A0 m c) (A1 m c) (A3 m c) (A4 m c) (A5 m c) (A6 m c) (A7 m c) (A8 m c) (A9 m c) (A2 m c))
    (fun t _ => flushed9_eq m c t) cover9

/-- The kernel's run: it terminates without a fault, its first output is the new hidden states, its second the new
    cell states, and its arguments end unchanged. -/
theorem run : θ_run defs (onTc (τ := τ) (main (F := Ideal))) ⟨m, fun _ => 0, ρ⟩ fun r => ∀ c : Dev nD,
      r.2.mem ((c : Thread nD τ).loc main_v6_0) = hyArr (A0 m c) (A1 m c) (A3 m c) (A4 m c) (A5 m c) (A6 m c) (A7 m c) (A8 m c) (A9 m c) (A2 m c)
      ∧ r.2.mem ((c : Thread nD τ).loc main_v6_1) = cyArr (A0 m c) (A1 m c) (A3 m c) (A4 m c) (A5 m c) (A6 m c) (A7 m c) (A8 m c) (A9 m c) (A2 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1.trans (final8 m c), (h c).2.1.trans (final9 m c), (h c).2.2⟩)
    (Cert.KernelIdeal.Value.run_blocks m ρ)

end Cert.LstmCell.Kern

end
-- ==== Proof.RefValue.lean ====
/-
  The reference's two results are the cell of `Spec.lean`, index by index.

  Its pre-activation array adds the five summands in the order ((((inp·W_ihᵀ + b_ih) + hx·W_hhᵀ) + b_hh) + (mu + sigma·eps));
  the two products are sums over the contracted axis of the transposed weights, so entry (b, j) reads W[j, k];
  each bias is broadcast along the batch axis, so entry (b, j) reads its j-th element. Regrouping the five
  summands gives `gate b j`. The four gate slices read columns h, 1024 + h, 2048 + h, 3072 + h, each sigmoid is
  spelled 1 / (1 + e^(-x)), and the rest is pointwise.
-/
import proofs.«111487_j85194971283616_2_alg».proof.Proof.Gen.ReferenceIdeal.Read
import proofs.«111487_j85194971283616_2_alg».proof.Proof.Spec

noncomputable section

namespace Cert.LstmCell.Ref

open Idealize.ShloMosaic Idealize.ShloMosaic.ValueIdx Cert.ReferenceIdeal Cert.ReferenceIdeal.Read Cert.LstmCell

variable (x0 : IdxBF → EReal) (x1 x2 : IdxBH → EReal) (x3 : IdxGF → EReal) (x4 : IdxGH → EReal)
  (x5 x6 x7 x8 : IdxG → EReal) (x9 : IdxBG → EReal)

/-- inp·W_ihᵀ at (b, j): the sum over k of inp[b,k]·W_ih[j,k]. -/
theorem prod_ih (b : Fin 8192) (j : Fin 4096) :
    val_main_v1 (F := Ideal) x0 x3 (ix2 b j) = ∑ k : Fin 512, x0 (ix2 b k) * x3 (ix2 j k) := by
  rw [val_main_v1_apply]
  refine Finset.sum_congr rfl fun k _ => ?_
  rw [val_main_v0_apply]
  have e1 : lidx_main_v1 (ix2 b j) k = ix2 b k :=
    funext fun a => Fin.ext (by match a with | ⟨0, _⟩ => rfl | ⟨1, _⟩ => rfl)
  have e2 : idx_main_v0 (ridx_main_v1 (ix2 b j) k) = ix2 j k :=
    funext fun a => Fin.ext (by match a with | ⟨0, _⟩ => rfl | ⟨1, _⟩ => rfl)
  rw [e1, e2]

/-- hx·W_hhᵀ at (b, j): the sum over k of hx[b,k]·W_hh[j,k]. -/
theorem prod_hh (b : Fin 8192) (j : Fin 4096) :
    val_main_v6 (F := Ideal) x1 x4 (ix2 b j) = ∑ k : Fin 1024, x1 (ix2 b k) * x4 (ix2 j k) := by
  rw [val_main_v6_apply]
  refine Finset.sum_congr rfl fun k _ => ?_
  rw [val_main_v5_apply]
  have e1 : lidx_main_v6 (ix2 b j) k = ix2 b k :=
    funext fun a => Fin.ext (by match a with | ⟨0, _⟩ => rfl | ⟨1, _⟩ => rfl)
  have e2 : idx_main_v5 (ridx_main_v6 (ix2 b j) k) = ix2 j k :=
    funext fun a => Fin.ext (by match a with | ⟨0, _⟩ => rfl | ⟨1, _⟩ => rfl)
  rw [e1, e2]

/-- b_ih broadcast along the batch axis, at (b, j), is b_ih[j]. -/
theorem bcast_bih (b : Fin 8192) (j : Fin 4096) : val_main_v3 (F := Ideal) x5 (ix2 b j) = x5 (ix1 j) := by
  rw [val_main_v3_apply, val_main_v2_apply]
  exact congrArg x5 (funext fun a => Fin.ext (by match a with | ⟨0, _⟩ => rfl))

/-- b_hh broadcast along the batch axis, at (b, j), is b_hh[j]. -/
theorem bcast_bhh (b : Fin 8192) (j : Fin 4096) : val_main_v9 (F := Ideal) x6 (ix2 b j) = x6 (ix1 j) := by
  rw [val_main_v9_apply, val_main_v8_apply]
  exact congrArg x6 (funext fun a => Fin.ext (by match a with | ⟨0, _⟩ => rfl))

/-- sigma broadcast along the batch axis, at (b, j), is sigma[j]. -/
theorem bcast_sg (b : Fin 8192) (j : Fin 4096) : val_main_v12 (F := Ideal) x8 (ix2 b j) = x8 (ix1 j) := by
  rw [val_main_v12_apply, val_main_v11_apply]
  exact congrArg x8 (funext fun a => Fin.ext (by match a with | ⟨0, _⟩ => rfl))

/-- mu broadcast along the batch axis, at (b, j), is mu[j]. -/
theorem bcast_mu (b : Fin 8192) (j : Fin 4096) : val_main_v15 (F := Ideal) x7 (ix2 b j) = x7 (ix1 j) := by
  rw [val_main_v15_apply, val_main_v14_apply]
  exact congrArg x7 (funext fun a => Fin.ext (by match a with | ⟨0, _⟩ => rfl))

/-- The reference's pre-activation array at (b, j) is `gate b j`: its five summands regrouped. -/
theorem gate_eq (b : Fin 8192) (j : Fin 4096) :
    val_main_v17 (F := Ideal) x0 x1 x3 x4 x5 x6 x7 x8 x9 (ix2 b j) = gate x0 x1 x3 x4 x5 x6 x7 x8 x9 b j := by
  rw [val_main_v17_apply, val_main_v10_apply, val_main_v7_apply, val_main_v4_apply, val_main_v16_apply,
    val_main_v13_apply, prod_ih, prod_hh, bcast_bih, bcast_bhh, bcast_sg, bcast_mu]
  exact regroup _ _ _ _ _ _

/-- The input-gate slice at (b, h) is the pre-activation of column h. -/
theorem slice_i (b : Fin 8192) (h : Fin 1024) :
    val_main_v18 (F := Ideal) x0 x1 x3 x4 x5 x6 x7 x8 x9 (ix2 b h)
      = gate x0 x1 x3 x4 x5 x6 x7 x8 x9 b (col 0 (by decide) h) := by
  rw [val_main_v18_apply]
  have e : idx_main_v18 (ix2 b h) = ix2 b (col 0 (by decide) h) :=
    funext fun a => Fin.ext (by match a with | ⟨0, _⟩ => rfl | ⟨1, _⟩ => rfl)
  rw [e, gate_eq]

/-- The forget-gate slice at (b, h) is the pre-activation of column h + 1024. -/
theorem slice_f (b : Fin 8192) (h : Fin 1024) :
    val_main_v19 (F := Ideal) x0 x1 x3 x4 x5 x6 x7 x8 x9 (ix2 b h)
      = gate x0 x1 x3 x4 x5 x6 x7 x8 x9 b (col 1024 (by decide) h) := by
  rw [val_main_v19_apply]
  have e : idx_main_v19 (ix2 b h) = ix2 b (col 1024 (by decide) h) :=
    funext fun a => Fin.ext (by match a with | ⟨0, _⟩ => rfl | ⟨1, _⟩ => show 1024 + h.val = h.val + 1024; omega)
  rw [e, gate_eq]

/-- The cell-gate slice at (b, h) is the pre-activation of column h + 2048. -/
theorem slice_g (b : Fin 8192) (h : Fin 1024) :
    val_main_v20 (F := Ideal) x0 x1 x3 x4 x5 x6 x7 x8 x9 (ix2 b h)
      = gate x0 x1 x3 x4 x5 x6 x7 x8 x9 b (col 2048 (by decide) h) := by
  rw [val_main_v20_apply]
  have e : idx_main_v20 (ix2 b h) = ix2 b (col 2048 (by decide) h) :=
    funext fun a => Fin.ext (by match a with | ⟨0, _⟩ => rfl | ⟨1, _⟩ => show 2048 + h.val = h.val + 2048; omega)
  rw [e, gate_eq]

/-- The output-gate slice at (b, h) is the pre-activation of column h + 3072. -/
theorem slice_o (b : Fin 8192) (h : Fin 1024) :
    val_main_v21 (F := Ideal) x0 x1 x3 x4 x5 x6 x7 x8 x9 (ix2 b h)
      = gate x0 x1 x3 x4 x5 x6 x7 x8 x9 b (col 3072 (by decide) h) := by
  rw [val_main_v21_apply]
  have e : idx_main_v21 (ix2 b h) = ix2 b (col 3072 (by decide) h) :=
    funext fun a => Fin.ext (by match a with | ⟨0, _⟩ => rfl | ⟨1, _⟩ => show 3072 + h.val = h.val + 3072; omega)
  rw [e, gate_eq]

/-- The input gate: 1 / (1 + e^(-x)) of its slice is the logistic function of the pre-activation. -/
theorem sig_i (b : Fin 8192) (h : Fin 1024) :
    val_main_v27 (F := Ideal) x0 x1 x3 x4 x5 x6 x7 x8 x9 (ix2 b h)
      = Ideal.logistic (gate x0 x1 x3 x4 x5 x6 x7 x8 x9 b (col 0 (by decide) h)) := by
  rw [val_main_v27_apply, val_main_v26_apply, val_main_cst_0_apply, val_main_v25_apply, val_main_v24_apply,
    val_main_cst_apply, val_main_v23_apply, val_main_v22_apply, slice_i]
  exact logistic_spelled _

/-- The forget gate likewise. -/
theorem sig_f (b : Fin 8192) (h : Fin 1024) :
    val_main_v33 (F := Ideal) x0 x1 x3 x4 x5 x6 x7 x8 x9 (ix2 b h)
      = Ideal.logistic (gate x0 x1 x3 x4 x5 x6 x7 x8 x9 b (col 1024 (by decide) h)) := by
  rw [val_main_v33_apply, val_main_v32_apply, val_main_cst_2_apply, val_main_v31_apply, val_main_v30_apply,
    val_main_cst_1_apply, val_main_v29_apply, val_main_v28_apply, slice_f]
  exact logistic_spelled _

/-- The output gate likewise. -/
theorem sig_o (b : Fin 8192) (h : Fin 1024) :
    val_main_v40 (F := Ideal) x0 x1 x3 x4 x5 x6 x7 x8 x9 (ix2 b h)
      = Ideal.logistic (gate x0 x1 x3 x4 x5 x6 x7 x8 x9 b (col 3072 (by decide) h)) := by
  rw [val_main_v40_apply, val_main_v39_apply, val_main_cst_4_apply, val_main_v38_apply, val_main_v37_apply,
    val_main_cst_3_apply, val_main_v36_apply, val_main_v35_apply, slice_o]
  exact logistic_spelled _

/-- The reference's second result, at (b, h), is the new cell state. -/
theorem cy_at (b : Fin 8192) (h : Fin 1024) :
    val_main_v43 (F := Ideal) x0 x1 x2 x3 x4 x5 x6 x7 x8 x9 (ix2 b h) = cyAt x0 x1 x3 x4 x5 x6 x7 x8 x9 x2 b h := by
  rw [val_main_v43_apply, val_main_v41_apply, val_main_v42_apply, val_main_v34_apply, sig_f, sig_i, slice_g]
  rfl

/-- The reference's second result is the new cell state. -/
theorem cy_eq : val_main_v43 (F := Ideal) x0 x1 x2 x3 x4 x5 x6 x7 x8 x9 = cyArr x0 x1 x3 x4 x5 x6 x7 x8 x9 x2 := by
  funext i
  obtain ⟨b, h, rfl⟩ : ∃ (b : Fin 8192) (h : Fin 1024), i = ix2 b h := ⟨i 0, i 1, eq_ix2 i⟩
  exact cy_at x0 x1 x2 x3 x4 x5 x6 x7 x8 x9 b h

/-- The reference's first result is the new hidden state. -/
theorem hy_eq : val_main_v45 (F := Ideal) x0 x1 x2 x3 x4 x5 x6 x7 x8 x9 = hyArr x0 x1 x3 x4 x5 x6 x7 x8 x9 x2 := by
  funext i
  obtain ⟨b, h, rfl⟩ : ∃ (b : Fin 8192) (h : Fin 1024), i = ix2 b h := ⟨i 0, i 1, eq_ix2 i⟩
  rw [val_main_v45_apply, val_main_v44_apply, sig_o, cy_at]
  rfl

end Cert.LstmCell.Ref

end
-- ==== Proof.lean ====
/-
  A probabilistic LSTM cell: a tiled kernel against its array-level reference, over the extended reals.

  Both programs take inputs inp [8192, 512], hidden states hx and cell states cx [8192, 1024], weights W_ih [4096, 512]
  and W_hh [4096, 1024], vectors b_ih, b_hh, mu, sigma [4096] and noise eps [8192, 4096], and return the new hidden and
  cell states. With

      gate b j = inp[b,:]·W_ih[j,:] + hx[b,:]·W_hh[j,:] + b_ih[j] + b_hh[j] + mu[j] + sigma[j]·eps[b,j],

  the new cell state is logistic(gate b (h+1024))·cx[b,h] + logistic(gate b h)·tanh(gate b (h+2048)) and the new hidden
  state logistic(gate b (h+3072))·tanh(new cell state) (Proof/Spec.lean).

  The kernel works on 256 batch rows per grid step against the whole weight arrays, multiplies into zero accumulators,
  adds the three vectors beforehand into one row, and applies the logistic function as one operation; the reference
  multiplies by transposed weights, adds the vectors one at a time in another order, and spells the logistic function as
  1 / (1 + e^(-x)). On the extended reals these are the same numbers: a sum's value does not depend on the order or
  grouping of its terms, a narrowing of the float format is the identity, and the logistic function is by definition
  that quotient. No finiteness of the inputs is needed.

  The three frame claims are the generated frames (the reference's is its generated run with the results dropped); the
  idealization rewrote no operation, so the preservation claim is trivially true; the algebraic claim sets the kernel's
  run (Proof/Point.lean: every output array after the run is the whole function) beside the reference's run read one
  operation at a time (Proof/RefValue.lean).
-/
import proofs.«111487_j85194971283616_2_alg».proof.Defs
import proofs.«111487_j85194971283616_2_alg».proof.Proof.Gen.Kernel
import proofs.«111487_j85194971283616_2_alg».proof.Proof.Gen.Kernel.Skeleton
import proofs.«111487_j85194971283616_2_alg».proof.Proof.Gen.Kernel.Launch
import proofs.«111487_j85194971283616_2_alg».proof.Proof.Gen.Kernel.Points
import proofs.«111487_j85194971283616_2_alg».proof.Proof.Gen.Kernel.Frame
import proofs.«111487_j85194971283616_2_alg».proof.Proof.Gen.KernelIdeal
import proofs.«111487_j85194971283616_2_alg».proof.Proof.Gen.KernelIdeal.Skeleton
import proofs.«111487_j85194971283616_2_alg».proof.Proof.Gen.KernelIdeal.Launch
import proofs.«111487_j85194971283616_2_alg».proof.Proof.Gen.KernelIdeal.Points
import proofs.«111487_j85194971283616_2_alg».proof.Proof.Gen.KernelIdeal.Frame
import proofs.«111487_j85194971283616_2_alg».proof.Proof.Gen.ReferenceIdeal
import proofs.«111487_j85194971283616_2_alg».proof.Proof.Gen.Pre_finite_inputs
import proofs.«111487_j85194971283616_2_alg».proof.Proof.Gen.KernelIdeal.Value
import proofs.«111487_j85194971283616_2_alg».proof.Proof.Gen.ReferenceIdeal.Run
import proofs.«111487_j85194971283616_2_alg».proof.Proof.Gen.ReferenceIdeal.Read
import proofs.«111487_j85194971283616_2_alg».proof.Proof.Point
import proofs.«111487_j85194971283616_2_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- So does the idealized reference: its run, with the two results dropped. -/
theorem frame_referenceIdeal : Cert.frame_ReferenceIdeal := fun m ρ _ =>
  (θ_run Cert.ReferenceIdeal.defs _ _).mono (fun _ h c => (h c).2.2)
    (Cert.ReferenceIdeal.Value.run (F := Ideal) m ρ)

/-- From memories that agree on the ten arguments, both programs end with the new hidden states and the new cell
    states of `Spec.lean` as their two results. -/
theorem algebraic : Cert.algebraic_KernelIdeal_ReferenceIdeal := by
  intro m ρ m' ρ' _ hagree
  refine ⟨fun c => Cert.LstmCell.hyArr (Cert.LstmCell.Kern.A0 m c) (Cert.LstmCell.Kern.A1 m c) (Cert.LstmCell.Kern.A3 m c) (Cert.LstmCell.Kern.A4 m c) (Cert.LstmCell.Kern.A5 m c) (Cert.LstmCell.Kern.A6 m c) (Cert.LstmCell.Kern.A7 m c) (Cert.LstmCell.Kern.A8 m c) (Cert.LstmCell.Kern.A9 m c) (Cert.LstmCell.Kern.A2 m c),
    fun c => Cert.LstmCell.cyArr (Cert.LstmCell.Kern.A0 m c) (Cert.LstmCell.Kern.A1 m c) (Cert.LstmCell.Kern.A3 m c) (Cert.LstmCell.Kern.A4 m c) (Cert.LstmCell.Kern.A5 m c) (Cert.LstmCell.Kern.A6 m c) (Cert.LstmCell.Kern.A7 m c) (Cert.LstmCell.Kern.A8 m c) (Cert.LstmCell.Kern.A9 m c) (Cert.LstmCell.Kern.A2 m c),
    Cert.LstmCell.Kern.run m ρ, ?_⟩
  refine (θ_run Cert.ReferenceIdeal.defs _ _).mono
    (fun _ h c => ⟨(h c).1.trans ?_, (h c).2.1.trans ?_, (h c).2.2⟩)
    (Cert.ReferenceIdeal.Value.run (F := Ideal) m' ρ')
  · obtain ⟨h0, h1, h2, h3, h4, h5, h6, h7, h8, h9⟩ := hagree c
    rw [Cert.ReferenceIdeal.Read.val_main_v45_eq, Cert.LstmCell.Ref.hy_eq, h0, h1, h2, h3, h4, h5, h6, h7, h8, h9]
  · obtain ⟨h0, h1, h2, h3, h4, h5, h6, h7, h8, h9⟩ := hagree c
    rw [Cert.ReferenceIdeal.Read.val_main_v43_eq, Cert.LstmCell.Ref.cy_eq, h0, h1, h2, h3, h4, h5, h6, h7, h8, h9]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
